-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x16 : Shape := ⟨2, ![100000, 16]⟩
abbrev S5000x64 : Shape := ⟨2, ![5000, 64]⟩
abbrev S5000x1 : Shape := ⟨2, ![5000, 1]⟩
abbrev S5000x16 : Shape := ⟨2, ![5000, 16]⟩
abbrev S1600000x16 : Shape := ⟨2, ![1600000, 16]⟩
abbrev S1x16 : Shape := ⟨2, ![1, 16]⟩

abbrev nBuf : Space → Nat
  | .hbm => 50
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S1x64, .f32⟩
  | .hbm, ⟨34, _⟩ => ⟨S100000x16, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x16, .f32⟩
  | .hbm, ⟨44, _⟩ => ⟨S_, .f32⟩
  | .hbm, ⟨45, _⟩ => ⟨S100000x16, .f32⟩
  | .hbm, ⟨46, _⟩ => ⟨S1600000x1, .i32⟩
  | .hbm, ⟨47, _⟩ => ⟨S100000x16, .f32⟩
  | .hbm, ⟨48, _⟩ => ⟨S1x16, .f32⟩
  | .hbm, ⟨49, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S64x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x1, .f32⟩
  | .local _ .vmem, ⟨12, _⟩ => ⟨S5000x1, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«119605_j51049981281479_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«119605_j51049981281479_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibGcnLaw.lean ====
/-
  Two rounds of mean aggregation over the edges of a graph, each followed by a dense layer, as whole-array functions
  on the extended reals, in two arrangements, and the law that joins them.

  The graph is given by two maps: edge `e` reads the row `g e` of a node table, and `L n` is the set of edges whose
  sum lands on node `n`. `agg` of a table `x` is, at `(n, c)`, the starting value `z` plus the sum over `e ∈ L n` of
  `x (g e, c)`. A node's degree is `z` plus one `one` per edge of `L n`, and the mean divides by the larger of the
  degree and `one`.

  * The first arrangement multiplies the aggregated rows by the reciprocal `one / max(deg, one)`, applies
    `relu (· W1 + b1)`, multiplies by `W2` BEFORE aggregating a second time, multiplies by the reciprocal again and adds
    `b2`.
  * The second arrangement divides the aggregated rows by `max(deg, one)`, applies `relu (· W1 + b1)`, aggregates,
    divides again, and only then applies `· W2 + b2`.

  With `z = 0` and `one = 1` the divisor is the real number `max(|L n|, 1) ≥ 1`, so dividing by it and multiplying by
  its reciprocal are the same operation on every extended real, and the two first layers agree with no hypothesis
  on the entries. The second layers differ by moving the product with `W2` and the factor `1 / max(|L n|, 1)` across
  the sum over `L n`: distributivity, which on the extended reals needs the summands to be REAL. They are when the
  features and the weights `W1`, `b1`, `W2` are real; `b2` is added last on both sides and may be anything.
-/
import Idealize.ShloMosaic.Lib.ValueIdx
import Idealize.ShloMosaic.PureOps.Ideal
import proofs.«119605_j51049981281479_2_alg».proof.Proof.LibDense
import proofs.«119605_j51049981281479_2_alg».proof.Proof.LibRealOps

noncomputable section

open scoped BigOperators

namespace Cert.Gcn

open Idealize.ShloMosaic Idealize.ShloMosaic.ValueIdx Cert.Lib.BiasDot Cert.Lib.Dense ProofLib.RealOps

/-! ## Real entries -/

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (coe_max a b).symm⟩

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real factor `t` and a product with real weights `W k` move across a sum of real terms: with `z = 0`,
    `(z + ∑ e, ∑ k, H e k · W k) · t = ∑ k, ((z + ∑ e, H e k) · t) · W k`. -/
theorem swap_scale {ι κ : Type*} (S : Finset ι) (K : Finset κ) (H : ι → κ → EReal) (W : κ → EReal) (t z : EReal)
    (hz : z = 0) (ht : IsReal t) (hH : ∀ e k, IsReal (H e k)) (hW : ∀ k, IsReal (W k)) :
    (z + ∑ e ∈ S, ∑ k ∈ K, H e k * W k) * t = ∑ k ∈ K, ((z + ∑ e ∈ S, H e k) * t) * W k := by
  subst hz
  obtain ⟨t, rfl⟩ := ht
  choose h hh using hH
  choose w hw using hW
  simp only [hh, hw, zero_add]
  have hl : ∑ e ∈ S, ∑ k ∈ K, ((h e k : ℝ) : EReal) * ((w k : ℝ) : EReal)
      = ((∑ e ∈ S, ∑ k ∈ K, h e k * w k : ℝ) : EReal) := by
    rw [coe_sum]
    exact Finset.sum_congr rfl fun e _ => dot_coe K (h e) w
  have hr : ∀ k, ((∑ e ∈ S, ((h e k : ℝ) : EReal)) * ((t : ℝ) : EReal)) * ((w k : ℝ) : EReal)
      = (((∑ e ∈ S, h e k) * t * w k : ℝ) : EReal) := by
    intro k
    rw [← coe_sum, ← EReal.coe_mul, ← EReal.coe_mul]
  rw [hl, ← EReal.coe_mul, Finset.sum_congr rfl fun k _ => hr k, ← coe_sum]
  refine congrArg _ ?_
  rw [Finset.sum_comm, Finset.sum_mul]
  refine Finset.sum_congr rfl fun k _ => ?_
  rw [Finset.sum_mul, Finset.sum_mul, Finset.sum_mul]
  exact Finset.sum_congr rfl fun e _ => by ring

/-! ## The layers -/

variable {N E : Nat}

/-- The aggregated table: at `(n, c)`, `z` plus the sum over the edges landing on `n` of the row each edge reads. -/
def agg (g : Fin E → Fin N) (L : Fin N → Finset (Fin E)) {C : Nat} (z : EReal)
    (x : (⟨2, ![N, C]⟩ : Shape).Idx → EReal) : (⟨2, ![N, C]⟩ : Shape).Idx → EReal :=
  fun i => z + ∑ e ∈ L (i 0), x (ix2 (g e) (i 1))

/-- Every row multiplied by its own factor. -/
def scaleRows {C : Nat} (s : Fin N → EReal) (x : (⟨2, ![N, C]⟩ : Shape).Idx → EReal) :
    (⟨2, ![N, C]⟩ : Shape).Idx → EReal :=
  fun i => x i * s (i 0)

/-- Every row divided by its own divisor. -/
def divRows {C : Nat} (d : Fin N → EReal) (x : (⟨2, ![N, C]⟩ : Shape).Idx → EReal) :
    (⟨2, ![N, C]⟩ : Shape).Idx → EReal :=
  fun i => Ideal.div (x i) (d (i 0))

/-- A node's degree: `z` plus one `one` per edge landing on it. -/
def degree (L : Fin N → Finset (Fin E)) (z one : EReal) : Fin N → EReal := fun n => z + ∑ _e ∈ L n, one

/-- The divisor of the mean: the larger of the degree and `one`. -/
def divisor (L : Fin N → Finset (Fin E)) (z one : EReal) : Fin N → EReal := fun n => max (degree L z one n) one

/-- Its reciprocal, computed as `one / divisor`. -/
def recip (L : Fin N → Finset (Fin E)) (z one : EReal) : Fin N → EReal := fun n => Ideal.div one (divisor L z one n)

variable {Df Dh Dc : Nat}

/-- The hidden layer of the first arrangement: `relu ((agg x · recip) W1 + b1)`. -/
def hiddenK (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) : (⟨2, ![N, Dh]⟩ : Shape).Idx → EReal :=
  relu (lin (scaleRows (recip L z one) (agg g L z x)) W1 b1)

/-- THE FIRST ARRANGEMENT: the product with `W2` taken before the second aggregation. -/
def outK (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) (W2 : (⟨2, ![Dh, Dc]⟩ : Shape).Idx → EReal)
    (b2 : (⟨1, ![Dc]⟩ : Shape).Idx → EReal) : (⟨2, ![N, Dc]⟩ : Shape).Idx → EReal :=
  addRow (scaleRows (recip L z one) (agg g L z (mm (hiddenK g L z one x W1 b1) W2))) b2

/-- The hidden layer of the second arrangement: `relu ((agg x / divisor) W1 + b1)`. -/
def hiddenR (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) : (⟨2, ![N, Dh]⟩ : Shape).Idx → EReal :=
  relu (lin (divRows (divisor L z one) (agg g L z x)) W1 b1)

/-- THE SECOND ARRANGEMENT: the second aggregation, the division, and then the product with `W2` and the bias. -/
def outR (g : Fin E → Fin N) (L : Fin N → Finset (Fin E)) (z one : EReal)
    (x : (⟨2, ![N, Df]⟩ : Shape).Idx → EReal) (W1 : (⟨2, ![Df, Dh]⟩ : Shape).Idx → EReal)
    (b1 : (⟨1, ![Dh]⟩ : Shape).Idx → EReal) (W2 : (⟨2, ![Dh, Dc]⟩ : Shape).Idx → EReal)
    (b2 : (⟨1, ![Dc]⟩ : Shape).Idx → EReal) : (⟨2, ![N, Dc]⟩ : Shape).Idx → EReal :=
  lin (divRows (divisor L z one) (agg g L z (hiddenR g L z one x W1 b1))) W2 b2

/-! ## The divisor is a real number at least one -/

/-- The real divisor of node `n`: the larger of the number of edges landing on it and one. -/
def divisorR (L : Fin N → Finset (Fin E)) (n : Fin N) : ℝ := max ((L n).card : ℝ) 1

theorem divisorR_ne_zero (L : Fin N → Finset (Fin E)) (n : Fin N) : divisorR L n ≠ 0 :=
  ne_of_gt (lt_of_lt_of_le one_pos (le_max_right _ _))

theorem divisor_eq (L : Fin N → Finset (Fin E)) (z one : EReal) (hz : z = 0) (hone : one = 1) (n : Fin N) :
    divisor L z one n = ((divisorR L n : ℝ) : EReal) := by
  subst hz hone
  unfold divisor degree divisorR
  rw [zero_add, sum_ones, coe_max, EReal.coe_one]

/-- Dividing a row by the divisor is multiplying it by the real `1 / divisorR`. -/
theorem divRows_eq {C : Nat} (L : Fin N → Finset (Fin E)) (z one : EReal) (hz : z = 0) (hone : one = 1)
    (x : (⟨2, ![N, C]⟩ : Shape).Idx → EReal) :
    divRows (divisor L z one) x = scaleRows (fun n => ((1 / divisorR L n : ℝ) : EReal)) x := by
  funext i
  obtain ⟨p, q, rfl⟩ : ∃ (p : Fin N) (q : Fin C), i = ix2 p q := ⟨i 0, i 1, eq_ix2 i⟩
  show Ideal.div (x (ix2 p q)) (divisor L z one p) = x (ix2 p q) * ((1 / divisorR L p : ℝ) : EReal)
  rw [divisor_eq L z one hz hone, Ideal.div_coe (divisorR_ne_zero L p)]

/-- The reciprocal `one / divisor` is the real `1 / divisorR`. -/
theorem recip_eq (L : Fin N → Finset (Fin E)) (z one : EReal) (hz : z = 0) (hone : one = 1) :
    recip L z one = fun n => ((1 / divisorR L n : ℝ) : EReal) := by
  funext n
  show Ideal.div one (divisor L z one n) = _
  rw [divisor_eq L z one hz hone, Ideal.div_coe (divisorR_ne_zero L n), hone, one_mul]

/-! ## The two arrangements agree on real entries -/

theorem hiddenR_eq_hiddenK (g : Fin E → Fin N) (L : Fin N → Finset (Fin E)) (z one : EReal) (hz : z = 0) (hone : one = 1)
    (x : (⟨2, ![N, Df]⟩ : Shape).Idx → EReal) (W1 : (⟨2, ![Df, Dh]⟩ : Shape).Idx → EReal)
    (b1 : (⟨1, ![Dh]⟩ : Shape).Idx → EReal) : hiddenR g L z one x W1 b1 = hiddenK g L z one x W1 b1 := by
  unfold hiddenR hiddenK
  rw [divRows_eq L z one hz hone, recip_eq L z one hz hone]

/-- The hidden layer has real entries when the features, `W1` and `b1` do. -/
theorem hiddenK_real (g : Fin E → Fin N) (L : Fin N → Finset (Fin E)) (z one : EReal) (hz : z = 0) (hone : one = 1)
    (x : (⟨2, ![N, Df]⟩ : Shape).Idx → EReal) (W1 : (⟨2, ![Df, Dh]⟩ : Shape).Idx → EReal)
    (b1 : (⟨1, ![Dh]⟩ : Shape).Idx → EReal) (hx : ∀ i, IsReal (x i)) (hW1 : ∀ i, IsReal (W1 i)) (hb1 : ∀ i, IsReal (b1 i))
    (i : (⟨2, ![N, Dh]⟩ : Shape).Idx) : IsReal (hiddenK g L z one x W1 b1 i) := by
  unfold hiddenK
  rw [recip_eq L z one hz hone]
  obtain ⟨p, q, rfl⟩ : ∃ (p : Fin N) (q : Fin Dh), i = ix2 p q := ⟨i 0, i 1, eq_ix2 i⟩
  show IsReal (max ((∑ k : Fin Df, ((z + ∑ e ∈ L p, x (ix2 (g e) k)) * ((1 / divisorR L p : ℝ) : EReal)) * W1 (ix2 k q))
    + b1 (ix1 q)) 0)
  refine IsReal.max (IsReal.add (isReal_sum _ _ fun k _ => IsReal.mul ?_ (hW1 _)) (hb1 _)) isReal_zero
  exact IsReal.mul (IsReal.add (hz ▸ isReal_zero) (isReal_sum _ _ fun e _ => hx _)) (isReal_coe _)

/-- THE LAW: on real features and real `W1`, `b1`, `W2` the two arrangements are one function. -/
theorem outK_eq_outR (g : Fin E → Fin N) (L : Fin N → Finset (Fin E)) (z one : EReal) (hz : z = 0) (hone : one = 1)
    (x : (⟨2, ![N, Df]⟩ : Shape).Idx → EReal) (W1 : (⟨2, ![Df, Dh]⟩ : Shape).Idx → EReal)
    (b1 : (⟨1, ![Dh]⟩ : Shape).Idx → EReal) (W2 : (⟨2, ![Dh, Dc]⟩ : Shape).Idx → EReal)
    (b2 : (⟨1, ![Dc]⟩ : Shape).Idx → EReal)
    (hx : ∀ i, IsReal (x i)) (hW1 : ∀ i, IsReal (W1 i)) (hb1 : ∀ i, IsReal (b1 i)) (hW2 : ∀ i, IsReal (W2 i)) :
    outK g L z one x W1 b1 W2 b2 = outR g L z one x W1 b1 W2 b2 := by
  unfold outK outR
  rw [hiddenR_eq_hiddenK g L z one hz hone, divRows_eq L z one hz hone, recip_eq L z one hz hone]
  funext i
  obtain ⟨p, q, rfl⟩ : ∃ (p : Fin N) (q : Fin Dc), i = ix2 p q := ⟨i 0, i 1, eq_ix2 i⟩
  show (z + ∑ e ∈ L p, ∑ k : Fin Dh, hiddenK g L z one x W1 b1 (ix2 (g e) k) * W2 (ix2 k q))
        * ((1 / divisorR L p : ℝ) : EReal) + b2 (ix1 q)
      = (∑ k : Fin Dh, ((z + ∑ e ∈ L p, hiddenK g L z one x W1 b1 (ix2 (g e) k))
        * ((1 / divisorR L p : ℝ) : EReal)) * W2 (ix2 k q)) + b2 (ix1 q)
  refine congrArg (· + b2 (ix1 q)) ?_
  exact swap_scale (L p) Finset.univ (fun e k => hiddenK g L z one x W1 b1 (ix2 (g e) k)) (fun k => W2 (ix2 k q))
    _ z hz (isReal_coe _) (fun e k => hiddenK_real g L z one hz hone x W1 b1 hx hW1 hb1 _) (fun k => hW2 _)

end Cert.Gcn

end
-- ==== Proof.KernelRun.lean ====
/-
  The idealized kernel program's run with its result array named.

  The program is two grid-stepped regions among two stretches of host operations. Every weakly fair execution from a
  memory with zero counters terminates without a fault, and the final memory holds, at every buffer that outlives the
  regions, the contents the last boundary of the run leaves there: the host operations folded over the launch memory,
  each region's arrays replaced by what its write-backs leave. Read at the result buffer this names the program's
  result; read at the argument buffers it gives them back unchanged.
-/
import proofs.«119605_j51049981281479_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«119605_j51049981281479_2_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.Region0.lean ====
/-
  What the first grid-stepped region leaves in its output array.

  Each of the 20 grid points takes a block of 5000 node rows: the aggregated features (5000 × 64), the column of
  reciprocal divisors (5000 × 1), and whole the first weight (64 × 64), the first bias as a 1 × 64 row and the second
  weight (64 × 16). It scales each row by its reciprocal divisor, applies `relu (· W1 + b1)` and multiplies by `W2`;
  the narrowing of the products' operands to a shorter float format is the identity on extended reals. Every entry
  of the result depends on one row of the block only, so the block a point writes back is the same function of the
  WHOLE arrays read at the block's rows, and since the 20 blocks tile the 100000 rows the output array ends as that
  function of the arrays the region found.
-/
import proofs.«119605_j51049981281479_2_alg».proof.Proof.Gen.KernelIdeal.Frame
import Idealize.ShloMosaic.Lib.Pipeline.Value
import Idealize.ShloMosaic.Lib.ValueIdx
import proofs.«119605_j51049981281479_2_alg».proof.Proof.LibRowLayers
import proofs.«119605_j51049981281479_2_alg».proof.Proof.LibColumn

noncomputable section

open scoped BigOperators

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.Lib.BiasDot Cert.Lib.Dense Cert.Lib.RowLayers

/-! ## The body as a function of its blocks -/

section Layer
variable {n M K H C : Nat}

/-- Every row multiplied by its entry of a one-column table. -/
def scaleCol (A : (⟨2, ![n, K]⟩ : Shape).Idx → EReal) (d : (⟨2, ![n, 1]⟩ : Shape).Idx → EReal) :
    (⟨2, ![n, K]⟩ : Shape).Idx → EReal :=
  fun j => A j * d (ix2 (j 0) (0 : Fin 1))

/-- The body's function: rows scaled, `relu (· W1 + b1)`, then the product with `W2`. -/
def layer (A : (⟨2, ![n, K]⟩ : Shape).Idx → EReal) (d : (⟨2, ![n, 1]⟩ : Shape).Idx → EReal)
    (W1 : (⟨2, ![K, H]⟩ : Shape).Idx → EReal) (brow : (⟨2, ![1, H]⟩ : Shape).Idx → EReal)
    (W2 : (⟨2, ![H, C]⟩ : Shape).Idx → EReal) : (⟨2, ![n, C]⟩ : Shape).Idx → EReal :=
  mm (relu (lin (scaleCol A d) W1 (rowVec brow))) W2

/-- A block of rows computes the whole arrays' entries at those rows. -/
theorem layer_rows (x0 : (⟨2, ![n, K]⟩ : Shape).Idx → EReal) (x1 : (⟨2, ![n, 1]⟩ : Shape).Idx → EReal)
    (x2 : (⟨2, ![K, H]⟩ : Shape).Idx → EReal) (x3 : (⟨2, ![1, H]⟩ : Shape).Idx → EReal)
    (x4 : (⟨2, ![H, C]⟩ : Shape).Idx → EReal)
    (A : (⟨2, ![M, K]⟩ : Shape).Idx → EReal) (d : (⟨2, ![M, 1]⟩ : Shape).Idx → EReal)
    (p : Fin n) (p' : Fin M) (q : Fin C)
    (h0 : ∀ k : Fin K, x0 (ix2 p k) = A (ix2 p' k)) (h1 : x1 (ix2 p (0 : Fin 1)) = d (ix2 p' (0 : Fin 1))) :
    layer x0 x1 x2 x3 x4 (ix2 p q) = layer A d x2 x3 x4 (ix2 p' q) := by
  show (∑ k : Fin H, relu (lin (scaleCol x0 x1) x2 (rowVec x3)) (ix2 p k) * x4 (ix2 k q))
    = ∑ k : Fin H, relu (lin (scaleCol A d) x2 (rowVec x3)) (ix2 p' k) * x4 (ix2 k q)
  refine Finset.sum_congr rfl fun k _ => congrArg (· * x4 (ix2 k q)) ?_
  refine layer_block (scaleCol x0 x1) x2 x3 (scaleCol A d) x2 x3 (ix2 p k) (ix2 p' k) (fun k' => ?_) (fun _ => rfl) rfl
  show x0 (ix2 p k') * x1 (ix2 p (0 : Fin 1)) = A (ix2 p' k') * d (ix2 p' (0 : Fin 1))
  rw [h0 k', h1]

end Layer

/-- The printed body's payload is that function of the loaded blocks. -/
theorem payload_eq (x0 : Vec Ideal S5000x64 .f32) (x1 : Vec Ideal S5000x1 .f32) (x2 : Vec Ideal S64x64 .f32)
    (x3 : Vec Ideal S1x64 .f32) (x4 : Vec Ideal S64x16 .f32) :
    k0_pay1 (F := Ideal) x0 x1 x2 x3 x4 = layer x0 x1 x2 x3 x4 := by
  unfold k0_pay1
  have hX : (mulf (shapeCast S5000x64 x0 shapeCasts_S5000x64_S5000x64)
      (broadcastTo S5000x64 (shapeCast S5000x1 x1 shapeCasts_S5000x1_S5000x1) broadcasts_S5000x1_S5000x64)
        : FVec Ideal S5000x64 .f32) = scaleCol x0 x1 := by
    funext j
    obtain ⟨p, k, rfl⟩ : ∃ (p : Fin 5000) (k : Fin 64), j = ix2 p k := ⟨j 0, j 1, eq_ix2 j⟩
    rw [mulf_apply, shapeCast_self, shapeCast_self, Cert.Lib.Column.colBroadcast_apply]
    rfl
  simp only []
  rw [hX, reluLayer_eq dot_S5000x64_S64x64_S5000x64_1_0_0_1_n_n rfl]
  funext i
  obtain ⟨p, q, rfl⟩ : ∃ (p : Fin 5000) (q : Fin 16), i = ix2 p q := ⟨i 0, i 1, eq_ix2 i⟩
  exact Cert.Lib.PlainDot.matmul_zero_apply none _ _ p q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the three row-blocked windows are at block `t` of the
    rows, the three whole windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of rows is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- WHAT POINT `t` WRITES BACK is block `t` of the body's function of the whole arrays. -/
theorem flushed_eq (c : Dev nD) (t : Fin cfg0.N) :
    (dat0 (F := Ideal) V c).flushed 5 t = ((cfg0.win 5).blk t).view.read (Elt Ideal)
      (layer (V c main_v18) (V c main_v8) (V c main_arg3) (V c main_v19) (V c main_arg5)) := by
  show (cfg0.win 5).cut (grid0.coords t) ((dat0 V c).after 5 t) = _
  rw [after0_5]
  unfold out0_5
  rw [View.canon_unit_zero hz]
  simp only [View.ld_unit_zero (S := S5000x64) hz, View.ld_unit_zero (S := S5000x1) hz,
    View.ld_unit_zero (S := S64x64) hz, View.ld_unit_zero (S := S1x64) hz, View.ld_unit_zero (S := S64x16) hz]
  rw [payload_eq]
  obtain ⟨e00, e01, e10, e11, e20, e21, e30, e31, e40, e41, e50, e51⟩ := idx_facts t
  have h2 : iblk0 V c 2 t = V c main_arg3 := by
    funext y
    show V c main_arg3 (((cfg0.win 2).blk t).view.emb y) = V c main_arg3 y
    refine congrArg (V c main_arg3) (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have h3 : iblk0 V c 3 t = V c main_v19 := by
    funext y
    show V c main_v19 (((cfg0.win 3).blk t).view.emb y) = V c main_v19 y
    refine congrArg (V c main_v19) (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  have h4 : iblk0 V c 4 t = V c main_arg5 := by
    funext y
    show V c main_arg5 (((cfg0.win 4).blk t).view.emb y) = V c main_arg5 y
    refine congrArg (V c main_arg5) (funext fun a => Fin.ext ?_)
    match a with
    | ⟨0, _⟩ => show win0_4.index t (0 : Fin 2) * 64 + 1 * (y 0).val = (y 0).val; omega
    | ⟨1, _⟩ => show win0_4.index t (1 : Fin 2) * 16 + 1 * (y 1).val = (y 1).val; omega
  rw [h2, h3, h4]
  funext j
  obtain ⟨p, q, rfl⟩ : ∃ (p : Fin 5000) (q : Fin 16), j = ix2 p q := ⟨j 0, j 1, eq_ix2 j⟩
  have hp : p.val < 5000 := p.isLt
  have ht : t.val < 20 := lt_of_lt_of_eq t.isLt N_0
  have hemb : ((cfg0.win 5).blk t).view.emb (ix2 p q) = ix2 (⟨t.val * 5000 + p.val, by omega⟩ : Fin 100000) q := by
    funext a
    apply Fin.ext
    match a with
    | ⟨0, _⟩ => show win0_5.index t (0 : Fin 2) * 5000 + 1 * p.val = t.val * 5000 + p.val; omega
    | ⟨1, _⟩ => show win0_5.index t (1 : Fin 2) * 16 + 1 * q.val = q.val; omega
  show layer (iblk0 V c 0 t) (iblk0 V c 1 t) (V c main_arg3) (V c main_v19) (V c main_arg5) (ix2 p q)
    = layer (V c main_v18) (V c main_v8) (V c main_arg3) (V c main_v19) (V c main_arg5) (((cfg0.win 5).blk t).view.emb (ix2 p q))
  rw [hemb]
  refine layer_rows (iblk0 V c 0 t) (iblk0 V c 1 t) (V c main_arg3) (V c main_v19) (V c main_arg5) (V c main_v18) (V c main_v8)
    p ⟨t.val * 5000 + p.val, by omega⟩ q (fun k => ?_) ?_
  · show V c main_v18 (((cfg0.win 0).blk t).view.emb (ix2 p k)) = _
    refine congrArg (V c main_v18) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_v8 (((cfg0.win 1).blk t).view.emb (ix2 p (0 : Fin 1))) = _
    refine congrArg (V c main_v8) (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega

/-- An index of the array is in point `t`'s block iff each coordinate is in the block's range on its axis. -/
theorem mem_blk (t : Fin cfg0.N) (i : S100000x16.Idx) :
    i ∈ ((cfg0.win 5).blk t).view.set ↔ ∀ a : Fin 2, win0_5.index t a * S5000x16.size a ≤ (i a).val
      ∧ (i a).val < win0_5.index t a * S5000x16.size a + S5000x16.size a := by
  show i ∈ ((View.whole main_v20).slice (win0_5.rect t)).set ↔ _
  rw [View.set_slice_whole, Rect.mem_set_unit]
  exact Iff.rfl

/-- The 20 blocks of 5000 rows cover the array: row `r` is in the block of point `r / 5000`. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 16 ≤ (i 1).val ∧ (i 1).val < win0_5.index t (1 : Fin 2) * 16 + 16
    omega

/-- THE OUTPUT ARRAY after the region: the body's function of the arrays the region found. -/
theorem array_eq (c : Dev nD) :
    (dat0 (F := Ideal) V c).arrAt 5 cfg0.N
      = layer (V c main_v18) (V c main_v8) (V c main_arg3) (V c main_v19) (V c main_arg5) :=
  (dat0 V c).arrAt_eq_of_cover 5 _ (fun t _ => flushed_eq V c t) cover

end Cert.KernelIdeal.Region0

end
-- ==== Proof.Region1.lean ====
/-
  What the second grid-stepped region leaves in its output array.

  Each of the 20 grid points takes a block of 5000 node rows of the aggregated table (5000 × 16), the same rows of the
  column of reciprocal divisors (5000 × 1) and whole the second bias as a 1 × 16 row; it scales each row by its reciprocal
  divisor and adds the bias row. Every entry depends on one row only, so the block a point writes back is that
  function of the whole arrays read at the block's rows, and the 20 blocks tile the 100000 rows.
-/
import proofs.«119605_j51049981281479_2_alg».proof.Proof.Gen.KernelIdeal.Frame
import Idealize.ShloMosaic.Lib.Pipeline.Value
import Idealize.ShloMosaic.Lib.ValueIdx
import proofs.«119605_j51049981281479_2_alg».proof.Proof.LibRowLayers
import proofs.«119605_j51049981281479_2_alg».proof.Proof.LibColumn

noncomputable section

open scoped BigOperators

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowLayers

/-! ## The body as a function of its blocks -/

section Layer
variable {n C : Nat}

/-- The body's function: every row multiplied by its entry of a one-column table, plus a row. -/
def epilogue (A : (⟨2, ![n, C]⟩ : Shape).Idx → EReal) (d : (⟨2, ![n, 1]⟩ : Shape).Idx → EReal)
    (brow : (⟨2, ![1, C]⟩ : Shape).Idx → EReal) : (⟨2, ![n, C]⟩ : Shape).Idx → EReal :=
  fun j => A j * d (ix2 (j 0) (0 : Fin 1)) + brow (ix2 (0 : Fin 1) (j 1))

theorem epilogue_apply (A : (⟨2, ![n, C]⟩ : Shape).Idx → EReal) (d : (⟨2, ![n, 1]⟩ : Shape).Idx → EReal)
    (brow : (⟨2, ![1, C]⟩ : Shape).Idx → EReal) (p : Fin n) (q : Fin C) :
    epilogue A d brow (ix2 p q) = A (ix2 p q) * d (ix2 p (0 : Fin 1)) + brow (ix2 (0 : Fin 1) q) := rfl

end Layer

/-- The printed body's payload is that function of the loaded blocks. -/
theorem payload_eq (x0 : Vec Ideal S5000x16 .f32) (x1 : Vec Ideal S5000x1 .f32) (x2 : Vec Ideal S1x16 .f32) :
    k1_pay1 (F := Ideal) x0 x1 x2 = epilogue x0 x1 x2 := by
  unfold k1_pay1
  funext j
  obtain ⟨p, q, rfl⟩ : ∃ (p : Fin 5000) (q : Fin 16), j = ix2 p q := ⟨j 0, j 1, eq_ix2 j⟩
  rw [addf_apply, mulf_apply, shapeCast_self, shapeCast_self, Cert.Lib.Column.colBroadcast_apply, rowRepeat_apply]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block of rows is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- WHAT POINT `t` WRITES BACK is block `t` of the body's function of the whole arrays. -/
theorem flushed_eq (c : Dev nD) (t : Fin cfg1.N) :
    (dat1 (F := Ideal) V c).flushed 3 t = ((cfg1.win 3).blk t).view.read (Elt Ideal)
      (epilogue (V c main_v30) (V c main_v8) (V c main_v31)) := by
  show (cfg1.win 3).cut (grid1.coords t) ((dat1 V c).after 3 t) = _
  rw [after1_3]
  unfold out1_3
  rw [View.canon_unit_zero hz]
  simp only [View.ld_unit_zero (S := S5000x16) hz, View.ld_unit_zero (S := S5000x1) hz, View.ld_unit_zero (S := S1x16) hz]
  rw [payload_eq]
  obtain ⟨e00, e01, e10, e11, e20, e21, e30, e31⟩ := idx_facts t
  funext j
  obtain ⟨p, q, rfl⟩ : ∃ (p : Fin 5000) (q : Fin 16), j = ix2 p q := ⟨j 0, j 1, eq_ix2 j⟩
  have hp : p.val < 5000 := p.isLt
  have ht : t.val < 20 := lt_of_lt_of_eq t.isLt N_1
  have hemb : ((cfg1.win 3).blk t).view.emb (ix2 p q) = ix2 (⟨t.val * 5000 + p.val, by omega⟩ : Fin 100000) q := by
    funext a
    apply Fin.ext
    match a with
    | ⟨0, _⟩ => show win1_3.index t (0 : Fin 2) * 5000 + 1 * p.val = t.val * 5000 + p.val; omega
    | ⟨1, _⟩ => show win1_3.index t (1 : Fin 2) * 16 + 1 * q.val = q.val; omega
  show epilogue (iblk1 V c 0 t) (iblk1 V c 1 t) (iblk1 V c 2 t) (ix2 p q)
    = epilogue (V c main_v30) (V c main_v8) (V c main_v31) (((cfg1.win 3).blk t).view.emb (ix2 p q))
  rw [hemb, epilogue_apply, epilogue_apply]
  have h0 : iblk1 V c 0 t (ix2 p q) = V c main_v30 (ix2 (⟨t.val * 5000 + p.val, by omega⟩ : Fin 100000) q) := by
    show V c main_v30 (((cfg1.win 0).blk t).view.emb (ix2 p q)) = _
    refine congrArg (V c main_v30) (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * q.val = q.val; omega
  have h1 : iblk1 V c 1 t (ix2 p (0 : Fin 1)) = V c main_v8 (ix2 (⟨t.val * 5000 + p.val, by omega⟩ : Fin 100000) (0 : Fin 1)) := by
    show V c main_v8 (((cfg1.win 1).blk t).view.emb (ix2 p (0 : Fin 1))) = _
    refine congrArg (V c main_v8) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : iblk1 V c 2 t (ix2 (0 : Fin 1) q) = V c main_v31 (ix2 (0 : Fin 1) q) := by
    show V c main_v31 (((cfg1.win 2).blk t).view.emb (ix2 (0 : Fin 1) q)) = _
    refine congrArg (V c main_v31) (funext fun a => Fin.ext ?_)
    match a with
    | ⟨0, _⟩ => show win1_2.index t (0 : Fin 2) * 1 + 1 * 0 = 0; omega
    | ⟨1, _⟩ => show win1_2.index t (1 : Fin 2) * 16 + 1 * q.val = q.val; omega
  rw [h0, h1, h2]

/-- An index of the array is in point `t`'s block iff each coordinate is in the block's range on its axis. -/
theorem mem_blk (t : Fin cfg1.N) (i : S100000x16.Idx) :
    i ∈ ((cfg1.win 3).blk t).view.set ↔ ∀ a : Fin 2, win1_3.index t a * S5000x16.size a ≤ (i a).val
      ∧ (i a).val < win1_3.index t a * S5000x16.size a + S5000x16.size a := by
  show i ∈ ((View.whole main_v32).slice (win1_3.rect t)).set ↔ _
  rw [View.set_slice_whole, Rect.mem_set_unit]
  exact Iff.rfl

/-- The 20 blocks of 5000 rows cover the array: row `r` is in the block of point `r / 5000`. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 16 ≤ (i 1).val ∧ (i 1).val < win1_3.index t (1 : Fin 2) * 16 + 16
    omega

/-- THE OUTPUT ARRAY after the region: the body's function of the arrays the region found. -/
theorem array_eq (c : Dev nD) :
    (dat1 (F := Ideal) V c).arrAt 3 cfg1.N = epilogue (V c main_v30) (V c main_v8) (V c main_v31) :=
  (dat1 V c).arrAt_eq_of_cover 3 _ (fun t _ => flushed_eq V c t) cover

end Cert.KernelIdeal.Region1

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«119605_j51049981281479_2_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.LibGcnHost.lean ====
/-
  The host's spelling of the graph aggregation, read as whole-array functions.

  A mean aggregation is written on the host as a gather of rows followed by a scatter-add of rows into a table of
  zeros: with `gcol` the column of gather indices and `scol` the column of scatter indices, the result at `(n, c)` is the
  zero the table starts from plus the sum, over the edges `e` whose scatter index is `n`, of the operand at the row
  edge `e` gathers and column `c` — the function `Cert.Gcn.agg` at the row map `gatherRow … gcol` and the edge sets
  `landsOn scol`. A node's degree is a scatter-add of ones into a column of zeros with the same scatter indices:
  `Cert.Gcn.degree` at the same edge sets. The two columns a divisor is spread through are read at an entry too.
-/
import Idealize.ShloMosaic.Lib.ValueIdx
import Idealize.ShloMosaic.Lib.Pipeline.Value
import Idealize.ShloMosaic.PureOps.Ideal.Laws
import proofs.«119605_j51049981281479_2_alg».proof.Proof.LibRowScatter
import proofs.«119605_j51049981281479_2_alg».proof.Proof.LibScatter1
import proofs.«119605_j51049981281479_2_alg».proof.Proof.LibColumn
import proofs.«119605_j51049981281479_2_alg».proof.Proof.LibGcnLaw

noncomputable section

open scoped BigOperators

namespace Cert.Gcn.Host

open Idealize.ShloMosaic Idealize.ShloMosaic.ValueIdx Cert.Lib.RowScatter Cert.Lib.Scatter1 Cert.Gcn

variable {N M C : Nat}

/-- A scalar constant broadcast to any shape reads, everywhere, the extended real its word encodes. -/
theorem splat_apply {t : Shape} (dims : Fin 0 → Fin t.rank) (h : (⟨0, ![]⟩ : Shape).BroadcastsInDim t dims)
    (w : BitVec 32) (j : t.Idx) :
    broadcastInDim t dims h (constant (F := Ideal) ⟨0, ![]⟩ .f32 w) j = Ideal.ofBits .f32 w := by
  refine (broadcastInDim_apply (s := ⟨0, ![]⟩) dims h _ j (fun a => a.elim0) (fun a => a.elim0)).trans ?_
  rw [constant_apply]

/-- THE AGGREGATION: a gather of rows scattered and added into a table of one constant. -/
theorem scatter_gather_eq (hN : 0 < N)
    (ds : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hds : ds = rowScatterDims N M C wfs)
    (dg : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hdg : dg = rowGatherDims N M C wfg)
    (dims : Fin 0 → Fin 2) (h0 : (⟨0, ![]⟩ : Shape).BroadcastsInDim ⟨2, ![N, C]⟩ dims) (zw : BitVec 32)
    (x : FVec Ideal ⟨2, ![N, C]⟩ .f32) (gcol scol : IVec ⟨2, ![M, 1]⟩ 32) :
    Host.scatterAdd (F := Ideal) ds (broadcastInDim ⟨2, ![N, C]⟩ dims h0 (constant ⟨0, ![]⟩ .f32 zw)) scol
        (Host.gather dg x gcol)
      = agg (gatherRow N hN gcol) (landsOn scol N) (Ideal.ofBits .f32 zw) x := by
  subst hds hdg
  funext i
  obtain ⟨n, c, rfl⟩ : ∃ (n : Fin N) (c : Fin C), i = ix2 n c := ⟨i 0, i 1, eq_ix2 i⟩
  rw [scatterAdd_rows_apply, splat_apply]
  show _ = Ideal.ofBits .f32 zw + ∑ e ∈ landsOn scol N n, x (ix2 (gatherRow N hN gcol e) c)
  exact congrArg (Ideal.ofBits .f32 zw + ·) (Finset.sum_congr rfl fun e _ => gather_rows_apply hN wfg x gcol e c)

/-- THE DEGREE: ones scattered and added into a column of one constant. -/
theorem scatter_ones_apply
    (d1 : ScatterDims ⟨1, ![N]⟩ ⟨2, ![M, 1]⟩ ⟨1, ![M]⟩)
    (wf1 : ScatterDims.WF ⟨1, ![N]⟩ ⟨2, ![M, 1]⟩ ⟨1, ![M]⟩ [] [0] [0] 1) (hd1 : d1 = scatter1Dims N M wf1)
    (dimsN : Fin 0 → Fin 1) (hN0 : (⟨0, ![]⟩ : Shape).BroadcastsInDim ⟨1, ![N]⟩ dimsN)
    (dimsM : Fin 0 → Fin 1) (hM0 : (⟨0, ![]⟩ : Shape).BroadcastsInDim ⟨1, ![M]⟩ dimsM) (zw ow : BitVec 32)
    (scol : IVec ⟨2, ![M, 1]⟩ 32) (n : Fin N) :
    Host.scatterAdd (F := Ideal) d1 (broadcastInDim ⟨1, ![N]⟩ dimsN hN0 (constant ⟨0, ![]⟩ .f32 zw)) scol
        (broadcastInDim ⟨1, ![M]⟩ dimsM hM0 (constant ⟨0, ![]⟩ .f32 ow)) (ix1 n)
      = degree (landsOn scol N) (Ideal.ofBits .f32 zw) (Ideal.ofBits .f32 ow) n := by
  subst hd1
  rw [scatterAdd1_apply, splat_apply]
  show _ = Ideal.ofBits .f32 zw + ∑ _e ∈ landsOn scol N n, Ideal.ofBits .f32 ow
  exact congrArg (Ideal.ofBits .f32 zw + ·) (Finset.sum_congr rfl fun e _ => splat_apply dimsM hM0 ow (ix1 e))

/-- The divisor `max(degree, one)` as the host computes it, at node `n`. -/
theorem host_divisor_apply
    (d1 : ScatterDims ⟨1, ![N]⟩ ⟨2, ![M, 1]⟩ ⟨1, ![M]⟩)
    (wf1 : ScatterDims.WF ⟨1, ![N]⟩ ⟨2, ![M, 1]⟩ ⟨1, ![M]⟩ [] [0] [0] 1) (hd1 : d1 = scatter1Dims N M wf1)
    (dimsN : Fin 0 → Fin 1) (hN0 : (⟨0, ![]⟩ : Shape).BroadcastsInDim ⟨1, ![N]⟩ dimsN)
    (dimsM : Fin 0 → Fin 1) (hM0 : (⟨0, ![]⟩ : Shape).BroadcastsInDim ⟨1, ![M]⟩ dimsM) (zw ow : BitVec 32)
    (scol : IVec ⟨2, ![M, 1]⟩ 32) (n : Fin N) :
    maximumf (Host.scatterAdd (F := Ideal) d1 (broadcastInDim ⟨1, ![N]⟩ dimsN hN0 (constant ⟨0, ![]⟩ .f32 zw)) scol
        (broadcastInDim ⟨1, ![M]⟩ dimsM hM0 (constant ⟨0, ![]⟩ .f32 ow)))
      (broadcastInDim ⟨1, ![N]⟩ dimsN hN0 (constant ⟨0, ![]⟩ .f32 ow)) (ix1 n)
      = divisor (landsOn scol N) (Ideal.ofBits .f32 zw) (Ideal.ofBits .f32 ow) n := by
  rw [maximumf_apply, scatter_ones_apply d1 wf1 hd1, splat_apply]
  rfl

/-- The reciprocal `one / max(degree, one)` as the host computes it, at node `n`. -/
theorem host_recip_apply
    (d1 : ScatterDims ⟨1, ![N]⟩ ⟨2, ![M, 1]⟩ ⟨1, ![M]⟩)
    (wf1 : ScatterDims.WF ⟨1, ![N]⟩ ⟨2, ![M, 1]⟩ ⟨1, ![M]⟩ [] [0] [0] 1) (hd1 : d1 = scatter1Dims N M wf1)
    (dimsN : Fin 0 → Fin 1) (hN0 : (⟨0, ![]⟩ : Shape).BroadcastsInDim ⟨1, ![N]⟩ dimsN)
    (dimsM : Fin 0 → Fin 1) (hM0 : (⟨0, ![]⟩ : Shape).BroadcastsInDim ⟨1, ![M]⟩ dimsM) (zw ow : BitVec 32)
    (scol : IVec ⟨2, ![M, 1]⟩ 32) (n : Fin N) :
    Host.divf (F := Ideal) (broadcastInDim ⟨1, ![N]⟩ dimsN hN0 (constant ⟨0, ![]⟩ .f32 ow))
      (maximumf (Host.scatterAdd (F := Ideal) d1 (broadcastInDim ⟨1, ![N]⟩ dimsN hN0 (constant ⟨0, ![]⟩ .f32 zw)) scol
          (broadcastInDim ⟨1, ![M]⟩ dimsM hM0 (constant ⟨0, ![]⟩ .f32 ow)))
        (broadcastInDim ⟨1, ![N]⟩ dimsN hN0 (constant ⟨0, ![]⟩ .f32 ow))) (ix1 n)
      = recip (landsOn scol N) (Ideal.ofBits .f32 zw) (Ideal.ofBits .f32 ow) n := by
  show Ideal.div (broadcastInDim ⟨1, ![N]⟩ dimsN hN0 (constant (F := Ideal) ⟨0, ![]⟩ .f32 ow) (ix1 n)) _ = _
  rw [host_divisor_apply d1 wf1 hd1, splat_apply]
  rfl

/-- A vector of `N` row values made an `N × 1` column and spread along `C` columns, both by the host's broadcast,
    reads at `(p, q)` the vector at `p`. -/
theorem hostCol_apply {α : Type} (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 v) (ix2 p q) = v (ix1 p) := by
  refine (broadcastInDim_apply ![0, 1] h2 _ (ix2 p q) (ix2 p (0 : Fin 1)) (fun a => ?_)).trans ?_
  · match a with
    | ⟨0, _⟩ =>
      show p.val = if N = 1 then 0 else p.val
      split
      · have := p.isLt; omega
      · rfl
    | ⟨1, _⟩ => exact (if_pos rfl).symm
  · refine broadcastInDim_apply ![0] h1 v (ix2 p (0 : Fin 1)) (ix1 p) (fun a => ?_)
    match a with
    | ⟨0, _⟩ =>
      show p.val = if N = 1 then 0 else p.val
      split
      · have := p.isLt; omega
      · rfl

/-- Dividing by an array whose every row is one value spread along the columns divides each row by its value. -/
theorem hostDiv_rows (X D : FVec Ideal ⟨2, ![N, C]⟩ .f32) (d : Fin N → EReal)
    (h : ∀ (p : Fin N) (q : Fin C), D (ix2 p q) = d p) : Host.divf (F := Ideal) X D = divRows d X := by
  funext i
  obtain ⟨p, q, rfl⟩ : ∃ (p : Fin N) (q : Fin C), i = ix2 p q := ⟨i 0, i 1, eq_ix2 i⟩
  show Ideal.div (X (ix2 p q)) (D (ix2 p q)) = Ideal.div (X (ix2 p q)) (d p)
  rw [h]

/-! ## The two index columns -/

section Columns
variable {M : Nat}

/-- The column of gather indices: each edge's source word, with `nw` added once where the word is negative as a
    signed integer (an index counted from the end of a table of `nw` rows), as an `M × 1` column. -/
def gcolOf (h0 : (⟨0, ![]⟩ : Shape).BroadcastsInDim ⟨1, ![M]⟩ ![])
    (h1 : (⟨1, ![M]⟩ : Shape).BroadcastsInDim ⟨2, ![M, 1]⟩ ![0]) (nw : BitVec 32) (x1 : IVec ⟨1, ![M]⟩ 32) :
    IVec ⟨2, ![M, 1]⟩ 32 :=
  broadcastInDim ⟨2, ![M, 1]⟩ ![0] h1
    (select (cmpi .slt x1 (broadcastInDim ⟨1, ![M]⟩ ![] h0 (constantI ⟨0, ![]⟩ 32 0#32)))
      (addi x1 (broadcastInDim ⟨1, ![M]⟩ ![] h0 (constantI ⟨0, ![]⟩ 32 nw))) x1)

/-- The column of scatter indices: each edge's destination word, as an `M × 1` column. -/
def scolOf (h1 : (⟨1, ![M]⟩ : Shape).BroadcastsInDim ⟨2, ![M, 1]⟩ ![0]) (x2 : IVec ⟨1, ![M]⟩ 32) : IVec ⟨2, ![M, 1]⟩ 32 :=
  broadcastInDim ⟨2, ![M, 1]⟩ ![0] h1 x2

end Columns

end Cert.Gcn.Host

end
-- ==== Proof.KernelValue.lean ====
/-
  The idealized kernel program's result as the first arrangement of the two-round aggregation.

  The program runs, in order: host operations that compute each node's degree and the reciprocal of
  `max(degree, 1)` as a column, aggregate the features along the edges, and lay the first bias out as a row; a region
  that scales the aggregated rows by the reciprocal, applies `relu (· W1 + b1)` and multiplies by `W2`; host operations
  that aggregate that table along the same edges and lay the second bias out as a row; a region that scales the rows by the
  same reciprocal column and adds the bias. Each boundary's contents are read from the one before, so the result
  array is `Cert.Gcn.outK` of the argument arrays, at the row map and the edge sets of the program's two index columns.
-/
import proofs.«119605_j51049981281479_2_alg».proof.Proof.Gen.KernelIdeal.Frame
import proofs.«119605_j51049981281479_2_alg».proof.Proof.Region0
import proofs.«119605_j51049981281479_2_alg».proof.Proof.Region1
import proofs.«119605_j51049981281479_2_alg».proof.Proof.LibGcnHost
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Gcn Cert.Gcn.Host Cert.Lib.RowScatter Cert.Lib.Scatter1
open Cert.Lib.Dense Cert.Lib.BiasDot Cert.Lib.RowLayers

/-- The column of gather indices: the source word of each edge, wrapped once if negative. -/
abbrev gcol (x1 : IVec S1600000 32) : IVec S1600000x1 32 :=
  gcolOf bcast_S_S1600000 bcast_S1600000_S1600000x1_0 100000#32 x1
/-- The column of scatter indices: the destination word of each edge. -/
abbrev scol (x2 : IVec S1600000 32) : IVec S1600000x1 32 := scolOf bcast_S1600000_S1600000x1_0 x2
/-- The node row edge `e` reads. -/
abbrev rowOf (x1 : IVec S1600000 32) : Fin 1600000 → Fin 100000 := gatherRow 100000 (by decide) (gcol x1)
/-- The edges whose sum lands on node `n`. -/
abbrev edgesOf (x2 : IVec S1600000 32) : Fin 100000 → Finset (Fin 1600000) := landsOn (scol x2) 100000
/-- The value the sums start from, and the value counted per edge. -/
abbrev zero : EReal := Ideal.ofBits .f32 0x00000000#32
abbrev one : EReal := Ideal.ofBits .f32 0x3F800000#32

variable (m : (ℓ : Loc nD τ sig) → Buf (Elt Ideal) ℓ) (ρ : Dev nD → PrngReg) (c : Dev nD)

/-- The argument arrays at launch. -/
abbrev a0 : FVec Ideal S100000x64 .f32 := W0 m ρ c (Proc.devRef .tc main_arg0)
abbrev a1 : IVec S1600000 32 := W0 m ρ c (Proc.devRef .tc main_arg1)
abbrev a2 : IVec S1600000 32 := W0 m ρ c (Proc.devRef .tc main_arg2)
abbrev a3 : FVec Ideal S64x64 .f32 := W0 m ρ c (Proc.devRef .tc main_arg3)
abbrev a4 : FVec Ideal S64 .f32 := W0 m ρ c (Proc.devRef .tc main_arg4)
abbrev a5 : FVec Ideal S64x16 .f32 := W0 m ρ c (Proc.devRef .tc main_arg5)
abbrev a6 : FVec Ideal S16 .f32 := W0 m ρ c (Proc.devRef .tc main_arg6)

/-! ## The first stretch of host operations -/

/-- The aggregated features. -/
theorem v18_eq : (V1 m ρ c main_v18 : S100000x64.Idx → EReal)
    = agg (rowOf (a1 m ρ c)) (edgesOf (a2 m ρ c)) zero (a0 m ρ c) := by
  show StableHlo.after hostOps0 (W0 m ρ c) (Proc.devRef .tc main_v18) = _
  after_results_simp
  exact scatter_gather_eq (by decide) _ scatter_S100000x64_S1600000x1_S1600000x64_1_0_0_1.wf rfl
    _ gather_S100000x64_S1600000x1_S1600000x64_1_0_n_n_0_1_164.wf rfl _ _ _ (a0 m ρ c) (gcol (a1 m ρ c)) (scol (a2 m ρ c))

/-- The column of reciprocal divisors, at a row. -/
theorem v8_apply (p : Fin 100000) :
    (V1 m ρ c main_v8 : S100000x1.Idx → EReal) (ix2 p (0 : Fin 1)) = recip (edgesOf (a2 m ρ c)) zero one p := by
  have e : (V1 m ρ c main_v8 : S100000x1.Idx → EReal)
      = shapeCast S100000x1 (Host.divf (F := Ideal) (broadcastInDim S100000 ![] bcast_S_S100000 (constant S_ .f32 0x3F800000#32))
          (maximumf (Host.scatterAdd (F := Ideal) scatter_S100000_S1600000x1_S1600000_n_0_0_1
              (broadcastInDim S100000 ![] bcast_S_S100000 (constant S_ .f32 0x00000000#32)) (scol (a2 m ρ c))
              (broadcastInDim S1600000 ![] bcast_S_S1600000 (constant S_ .f32 0x3F800000#32)))
            (broadcastInDim S100000 ![] bcast_S_S100000 (constant S_ .f32 0x3F800000#32)))) shapeCasts_S100000_S100000x1 := by
    show StableHlo.after hostOps0 (W0 m ρ c) (Proc.devRef .tc main_v8) = _
    after_results
    rfl
  rw [e, Cert.Lib.Column.col_apply]
  exact host_recip_apply (N := 100000) (M := 1600000) scatter_S100000_S1600000x1_S1600000_n_0_0_1
    scatter_S100000_S1600000x1_S1600000_n_0_0_1.wf rfl ![] bcast_S_S100000 ![] bcast_S_S1600000
    0x00000000#32 0x3F800000#32 (scol (a2 m ρ c)) p

/-- The first bias laid out as a row. -/
theorem v19_eq : (V1 m ρ c main_v19 : S1x64.Idx → EReal) = shapeCast S1x64 (a4 m ρ c) shapeCasts_S64_S1x64 := by
  show StableHlo.after hostOps0 (W0 m ρ c) (Proc.devRef .tc main_v19) = _
  after_results
  rfl

theorem arg3_eq : (V1 m ρ c main_arg3 : S64x64.Idx → EReal) = a3 m ρ c := by
  show StableHlo.after hostOps0 (W0 m ρ c) (Proc.devRef .tc main_arg3) = _
  after_results <;> rfl

theorem arg5_eq : (V1 m ρ c main_arg5 : S64x16.Idx → EReal) = a5 m ρ c := by
  show StableHlo.after hostOps0 (W0 m ρ c) (Proc.devRef .tc main_arg5) = _
  after_results <;> rfl

/-! ## The first region -/

/-- The first region's output array: the hidden layer times `W2`. -/
theorem v20_eq : (W2 m ρ c (Proc.devRef .tc main_v20) : S100000x16.Idx → EReal)
    = mm (hiddenK (rowOf (a1 m ρ c)) (edgesOf (a2 m ρ c)) zero one (a0 m ρ c) (a3 m ρ c) (a4 m ρ c)) (a5 m ρ c) := by
  refine (W2_arr m ρ c 5).trans ((Region0.array_eq (V1 m ρ) c).trans ?_)
  rw [v18_eq, v19_eq, arg3_eq, arg5_eq]
  unfold Region0.layer hiddenK
  rw [rowVec_reshape]
  have hs : Region0.scaleCol (agg (rowOf (a1 m ρ c)) (edgesOf (a2 m ρ c)) zero (a0 m ρ c)) (V1 m ρ c main_v8)
      = scaleRows (recip (edgesOf (a2 m ρ c)) zero one) (agg (rowOf (a1 m ρ c)) (edgesOf (a2 m ρ c)) zero (a0 m ρ c)) := by
    funext j
    obtain ⟨p, k, rfl⟩ : ∃ (p : Fin 100000) (k : Fin 64), j = ix2 p k := ⟨j 0, j 1, eq_ix2 j⟩
    show _ * (V1 m ρ c main_v8 : S100000x1.Idx → EReal) (ix2 p (0 : Fin 1)) = _ * recip (edgesOf (a2 m ρ c)) zero one p
    rw [v8_apply]
  rw [hs]

/-! ## The second stretch of host operations -/

theorem W2_arg1 : (W2 m ρ c (Proc.devRef .tc main_arg1) : S1600000.Idx → BitVec 32) = a1 m ρ c := by
  refine (W2_of_ne m ρ c main_arg1 (by decide)).trans ?_
  show StableHlo.after hostOps0 (W0 m ρ c) (Proc.devRef .tc main_arg1) = _
  after_results <;> rfl

theorem W2_arg2 : (W2 m ρ c (Proc.devRef .tc main_arg2) : S1600000.Idx → BitVec 32) = a2 m ρ c := by
  refine (W2_of_ne m ρ c main_arg2 (by decide)).trans ?_
  show StableHlo.after hostOps0 (W0 m ρ c) (Proc.devRef .tc main_arg2) = _
  after_results <;> rfl

theorem W2_arg6 : (W2 m ρ c (Proc.devRef .tc main_arg6) : S16.Idx → EReal) = a6 m ρ c := by
  refine (W2_of_ne m ρ c main_arg6 (by decide)).trans ?_
  show StableHlo.after hostOps0 (W0 m ρ c) (Proc.devRef .tc main_arg6) = _
  after_results <;> rfl

/-- The aggregated table of the first region's output. -/
theorem v30_eq : (V3 m ρ c main_v30 : S100000x16.Idx → EReal)
    = agg (rowOf (a1 m ρ c)) (edgesOf (a2 m ρ c)) zero
        (mm (hiddenK (rowOf (a1 m ρ c)) (edgesOf (a2 m ρ c)) zero one (a0 m ρ c) (a3 m ρ c) (a4 m ρ c)) (a5 m ρ c)) := by
  show StableHlo.after hostOps1 (W2 m ρ c) (Proc.devRef .tc main_v30) = _
  after_results
  rw [W2_arg1, W2_arg2, v20_eq]
  exact scatter_gather_eq (by decide) _ scatter_S100000x16_S1600000x1_S1600000x16_1_0_0_1.wf rfl
    _ gather_S100000x16_S1600000x1_S1600000x16_1_0_n_n_0_1_116.wf rfl _ _ _ _ (gcol (a1 m ρ c)) (scol (a2 m ρ c))

/-- The column of reciprocal divisors is the one the first region read. -/
theorem v8_kept : (V3 m ρ c main_v8 : S100000x1.Idx → EReal) = V1 m ρ c main_v8 := by
  show StableHlo.after hostOps1 (W2 m ρ c) (Proc.devRef .tc main_v8) = _
  after_results
  exact (W2_arr m ρ c 1).trans (((dat0 (V1 m ρ) c).arrAt_in 1 rfl _).trans (A_eq0 (V1 m ρ) c 1))

/-- The second bias laid out as a row. -/
theorem v31_eq : (V3 m ρ c main_v31 : S1x16.Idx → EReal) = shapeCast S1x16 (a6 m ρ c) shapeCasts_S16_S1x16 := by
  show StableHlo.after hostOps1 (W2 m ρ c) (Proc.devRef .tc main_v31) = _
  after_results
  rw [W2_arg6]
  rfl

/-! ## The second region, and the result -/

/-- THE RESULT ARRAY is the first arrangement of the argument arrays. -/
theorem result_eq : (W4 m ρ c (Proc.devRef .tc main_v32) : S100000x16.Idx → EReal)
    = outK (rowOf (a1 m ρ c)) (edgesOf (a2 m ρ c)) zero one (a0 m ρ c) (a3 m ρ c) (a4 m ρ c) (a5 m ρ c) (a6 m ρ c) := by
  refine (W4_arr m ρ c 3).trans ((Region1.array_eq (V3 m ρ) c).trans ?_)
  rw [v30_eq, v8_kept, v31_eq]
  funext i
  obtain ⟨p, q, rfl⟩ : ∃ (p : Fin 100000) (q : Fin 16), i = ix2 p q := ⟨i 0, i 1, eq_ix2 i⟩
  have hb : shapeCast S1x16 (a6 m ρ c) shapeCasts_S16_S1x16 (ix2 (0 : Fin 1) q) = (a6 m ρ c) (ix1 q) :=
    congrFun (rowVec_reshape (a6 m ρ c) shapeCasts_S16_S1x16) (ix1 q)
  rw [Region1.epilogue_apply, v8_apply, hb]
  rfl

end Cert.KernelIdeal.KValue

end
-- ==== Proof.RefValue.lean ====
/-
  The reference program's result as the second arrangement of the two-round aggregation.

  The reference gathers a row of the node table per edge and scatter-adds it to the edge's destination, divides every
  row by `max(degree, 1)` (the degree a scatter-add of ones), applies a dense layer with a positive part, does the same
  aggregation and division again, and finishes with the second dense layer. Read one operation at a time, its result
  is `Cert.Gcn.outR` at the row map and the edge sets of its two index columns.
-/
import proofs.«119605_j51049981281479_2_alg».proof.Proof.Gen.ReferenceIdeal.Read
import proofs.«119605_j51049981281479_2_alg».proof.Proof.LibGcnHost
import proofs.«119605_j51049981281479_2_alg».proof.Proof.LibDense

noncomputable section

namespace Cert.ReferenceIdeal.RefValue

open Cert.ReferenceIdeal Cert.ReferenceIdeal.Gen Cert.ReferenceIdeal.Read
open Idealize.ShloMosaic Idealize.ShloMosaic.ValueIdx
open Cert.Gcn Cert.Gcn.Host Cert.Lib.RowScatter Cert.Lib.Scatter1 Cert.Lib.Dense Cert.Lib.BiasDot

/-- The column of gather indices: the source word of each edge, wrapped once if negative. -/
abbrev gcol (x1 : IVec S1600000 32) : IVec S1600000x1 32 :=
  gcolOf bcast_S_S1600000 bcast_S1600000_S1600000x1_0 100000#32 x1
/-- The column of scatter indices: the destination word of each edge. -/
abbrev scol (x2 : IVec S1600000 32) : IVec S1600000x1 32 := scolOf bcast_S1600000_S1600000x1_0 x2

/-- The node row edge `e` reads. -/
abbrev rowOf (x1 : IVec S1600000 32) : Fin 1600000 → Fin 100000 := gatherRow 100000 (by decide) (gcol x1)
/-- The edges whose sum lands on node `n`. -/
abbrev edgesOf (x2 : IVec S1600000 32) : Fin 100000 → Finset (Fin 1600000) := landsOn (scol x2) 100000
/-- The value the sums start from, and the value counted per edge. -/
abbrev zero : EReal := Ideal.ofBits .f32 0x00000000#32
abbrev one : EReal := Ideal.ofBits .f32 0x3F800000#32

variable (x0 : FVec Ideal S100000x64 .f32) (x1 x2 : IVec S1600000 32) (x3 : FVec Ideal S64x64 .f32)
  (x4 : FVec Ideal S64 .f32) (x5 : FVec Ideal S64x16 .f32) (x6 : FVec Ideal S16 .f32)

/-- The first aggregation. -/
theorem v9_eq : val_main_v9 (F := Ideal) x0 x1 x2 = agg (rowOf x1) (edgesOf x2) zero x0 := by
  unfold val_main_v9 val_main_v7 val_main_cst val_main_v6 val_main_v8 val_main_v5 val_main_v4 val_main_v3 val_main_v2
    val_main_v1 val_main_v0 val_main_c val_main_c_0
  exact scatter_gather_eq (by decide) _ scatter_S100000x64_S1600000x1_S1600000x64_1_0_0_1.wf rfl
    _ gather_S100000x64_S1600000x1_S1600000x64_1_0_n_n_0_1_164.wf rfl _ _ _ x0 (gcol x1) (scol x2)

/-- The divisor spread over the 64 columns, at an entry. -/
theorem v17_apply (p : Fin 100000) (q : Fin 64) :
    val_main_v17 (F := Ideal) x2 (ix2 p q) = divisor (edgesOf x2) zero one p := by
  unfold val_main_v17 val_main_v16 val_main_v15 val_main_v13 val_main_v14 val_main_v11 val_main_v12 val_main_v10
    val_main_cst_1 val_main_cst_2 val_main_cst_3
  rw [hostCol_apply]
  have h := host_divisor_apply (N := 100000) (M := 1600000) scatter_S100000_S1600000x1_S1600000_n_0_0_1
    scatter_S100000_S1600000x1_S1600000_n_0_0_1.wf rfl ![] bcast_S_S100000 ![] bcast_S_S1600000
    0x00000000#32 0x3F800000#32 (broadcastInDim S1600000x1 ![0] bcast_S1600000_S1600000x1_0 x2) p
  exact h

/-- The aggregated features divided by the divisor. -/
theorem v18_eq : val_main_v18 (F := Ideal) x0 x1 x2
    = divRows (divisor (edgesOf x2) zero one) (agg (rowOf x1) (edgesOf x2) zero x0) := by
  unfold val_main_v18
  rw [v9_eq]
  exact hostDiv_rows _ (val_main_v17 (F := Ideal) x2) (divisor (edgesOf x2) zero one) (v17_apply x2)

/-- The hidden layer. -/
theorem v23_eq : val_main_v23 (F := Ideal) x0 x1 x2 x3 x4 = hiddenR (rowOf x1) (edgesOf x2) zero one x0 x3 x4 := by
  unfold val_main_v23 val_main_v22 val_main_v19 val_main_v21 val_main_v20 val_main_call0_v0 val_main_call0_cst
  rw [v18_eq]
  exact host_lin_relu dot_S100000x64_S64x64_S100000x64_1_0_0_1_n_n rfl _ x3 x4 _ _ _ _

/-- The second aggregation. -/
theorem v33_eq : val_main_v33 (F := Ideal) x0 x1 x2 x3 x4
    = agg (rowOf x1) (edgesOf x2) zero (hiddenR (rowOf x1) (edgesOf x2) zero one x0 x3 x4) := by
  unfold val_main_v33 val_main_v31 val_main_cst_6 val_main_v30 val_main_v32 val_main_v29 val_main_v28 val_main_v27
    val_main_v26 val_main_v25 val_main_v24 val_main_c_4 val_main_c_5
  rw [v23_eq]
  exact scatter_gather_eq (by decide) _ scatter_S100000x64_S1600000x1_S1600000x64_1_0_0_1.wf rfl
    _ gather_S100000x64_S1600000x1_S1600000x64_1_0_n_n_0_1_164.wf rfl _ _ _ _ (gcol x1) (scol x2)

/-- The divisor spread over the 64 columns a second time, at an entry. -/
theorem v41_apply (p : Fin 100000) (q : Fin 64) :
    val_main_v41 (F := Ideal) x2 (ix2 p q) = divisor (edgesOf x2) zero one p := by
  unfold val_main_v41 val_main_v40 val_main_v39 val_main_v37 val_main_v38 val_main_v35 val_main_v36 val_main_v34
    val_main_cst_7 val_main_cst_8 val_main_cst_9
  rw [hostCol_apply]
  have h := host_divisor_apply (N := 100000) (M := 1600000) scatter_S100000_S1600000x1_S1600000_n_0_0_1
    scatter_S100000_S1600000x1_S1600000_n_0_0_1.wf rfl ![] bcast_S_S100000 ![] bcast_S_S1600000
    0x00000000#32 0x3F800000#32 (broadcastInDim S1600000x1 ![0] bcast_S1600000_S1600000x1_0 x2) p
  exact h

/-- The aggregated hidden layer divided by the divisor. -/
theorem v42_eq : val_main_v42 (F := Ideal) x0 x1 x2 x3 x4
    = divRows (divisor (edgesOf x2) zero one)
        (agg (rowOf x1) (edgesOf x2) zero (hiddenR (rowOf x1) (edgesOf x2) zero one x0 x3 x4)) := by
  unfold val_main_v42
  rw [v33_eq]
  exact hostDiv_rows _ (val_main_v41 (F := Ideal) x2) (divisor (edgesOf x2) zero one) (v41_apply x2)

/-- THE REFERENCE'S RESULT is the second arrangement. -/
theorem v46_eq : val_main_v46 (F := Ideal) x0 x1 x2 x3 x4 x5 x6 = outR (rowOf x1) (edgesOf x2) zero one x0 x3 x4 x5 x6 := by
  unfold val_main_v46 val_main_v43 val_main_v45 val_main_v44
  rw [v42_eq, host_mm dot_S100000x64_S64x16_S100000x16_1_0_0_1_n_n rfl, host_addRow]
  rfl

end Cert.ReferenceIdeal.RefValue

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.Finite.lean ====
/-
  The precondition, read back: every entry of the four float arrays the law needs is a real number.

  The precondition is the conjunction, over the five float arguments, of "every entry's absolute value is below
  `+∞`", each a comparison reduced by `and` over every axis. It is 1 exactly when every conjunct is, and a conjunct
  that is 1 says every entry of its array is neither infinity: a real.
-/
import proofs.«119605_j51049981281479_2_alg».proof.Pre_finite_inputs
import proofs.«119605_j51049981281479_2_alg».proof.Proof.Gen.Pre_finite_inputs
import proofs.«119605_j51049981281479_2_alg».proof.Proof.LibFiniteEntry
import proofs.«119605_j51049981281479_2_alg».proof.Proof.LibGcnHost
import Idealize.ShloMosaic.Lib.ValueIdx
import Idealize.ShloMosaic.Lib.Affine

noncomputable section

namespace Cert.Gcn.Finite

open Idealize.ShloMosaic ProofLib.Finite Cert.Gcn Cert.Gcn.Host Cert.Pre_finite_inputs

instance : Subsingleton S_.Idx := ⟨fun a b => funext fun d => d.elim0⟩

/-- The features and the weights `W1`, `b1`, `W2` have real entries under the precondition. -/
theorem real_of_pre (x0 : FVec Ideal S100000x64 .f32) (x1 x2 : IVec S1600000 32) (x3 : FVec Ideal S64x64 .f32)
    (x4 : FVec Ideal S64 .f32) (x5 : FVec Ideal S64x16 .f32) (x6 : FVec Ideal S16 .f32)
    (h : Cert.Pre_finite_inputs.fn (F := Ideal) x0 x1 x2 x3 x4 x5 x6 = fun _ => 1#1) :
    (∀ i, IsReal (x0 i)) ∧ (∀ i, IsReal (x3 i)) ∧ (∀ i, IsReal (x4 i)) ∧ (∀ i, IsReal (x5 i)) := by
  have h0 := congrFun h ValueIdx.ix0
  unfold Cert.Pre_finite_inputs.fn Cert.Pre_finite_inputs.fn_part1 at h0
  dsimp only at h0
  obtain ⟨h0123, -⟩ := (andi_eq_one _ _).mp h0
  obtain ⟨h012, h3⟩ := (andi_eq_one _ _).mp h0123
  obtain ⟨h01, h2⟩ := (andi_eq_one _ _).mp h012
  obtain ⟨hf, hw1⟩ := (andi_eq_one _ _).mp h01
  exact ⟨fun i => all_real_of_all_abs_lt_inf x0 _ (fun j => splat_apply _ _ _ j) _ _ _ _ hf i,
    fun i => all_real_of_all_abs_lt_inf x3 _ (fun j => splat_apply _ _ _ j) _ _ _ _ hw1 i,
    fun i => all_real_of_all_abs_lt_inf x4 _ (fun j => splat_apply _ _ _ j) _ _ _ _ h2 i,
    fun i => all_real_of_all_abs_lt_inf x5 _ (fun j => splat_apply _ _ _ j) _ _ _ _ h3 i⟩

end Cert.Gcn.Finite

end
-- ==== Proof.lean ====
/-
  A two-layer graph network with mean aggregation, computed in two arrangements that agree on real inputs.

  Both programs aggregate, for every node, the feature rows of the edges that end at it (a gather of rows by the
  edges' source words, a scatter-add by their destination words), divide by `max(degree, 1)`, apply a dense layer with
  a positive part, aggregate and divide again, and apply a second dense layer. The reference does it in that order. The
  kernel program multiplies by the reciprocal of `max(degree, 1)` instead of dividing, applies the second weight matrix
  to every node BEFORE the second aggregation (a 16-wide aggregation instead of a 64-wide one), and adds the second
  bias last; its two dense stages run block by block over 5000 node rows at a time, the products' operands narrowed to
  a shorter float format, which changes nothing on the extended reals.

  On the extended reals dividing by the real number `max(degree, 1) ≥ 1` and multiplying by its reciprocal are one
  operation, so the first layers agree outright. The second layers differ by distributivity — the factor
  `1 / max(degree, 1)` and the product with the second weight matrix moved across the sum over a node's incoming
  edges — which holds because, under the precondition, the features and the weights are real numbers
  (`Cert.Gcn.outK_eq_outR`). The frames are the generated ones; the kernel program's run is taken with its result array
  named, and the reference's run is the generated one read one operation at a time.
-/
import proofs.«119605_j51049981281479_2_alg».proof.Defs
import proofs.«119605_j51049981281479_2_alg».proof.Proof.Gen.Kernel
import proofs.«119605_j51049981281479_2_alg».proof.Proof.Gen.Kernel.Frame
import proofs.«119605_j51049981281479_2_alg».proof.Proof.Gen.KernelIdeal
import proofs.«119605_j51049981281479_2_alg».proof.Proof.Gen.KernelIdeal.Frame
import proofs.«119605_j51049981281479_2_alg».proof.Proof.Gen.ReferenceIdeal
import proofs.«119605_j51049981281479_2_alg».proof.Proof.Gen.Pre_finite_inputs
import proofs.«119605_j51049981281479_2_alg».proof.Proof.Gen.ReferenceIdeal.Run
import proofs.«119605_j51049981281479_2_alg».proof.Proof.Gen.ReferenceIdeal.Read
import proofs.«119605_j51049981281479_2_alg».proof.Proof.LibGcnLaw
import proofs.«119605_j51049981281479_2_alg».proof.Proof.KernelRun
import proofs.«119605_j51049981281479_2_alg».proof.Proof.KernelValue
import proofs.«119605_j51049981281479_2_alg».proof.Proof.RefValue
import proofs.«119605_j51049981281479_2_alg».proof.Proof.Finite
import Idealize.ShloMosaic.Adequacy
import Idealize.ShloMosaic.Init

noncomputable section

namespace Cert.Proof

open Idealize.ShloMosaic Idealize.ShloMosaic.TcCoe Idealize.SL.Sem

/-- The f32 word of `1.0` denotes the number one. -/
theorem ofBits_one_f32 : Ideal.ofBits .f32 0x3F800000#32 = 1 := by
  rw [← EReal.coe_one]
  simp [Ideal.ofBits, Ideal.ieee, -EReal.coe_mul, -EReal.coe_one]
  try norm_num

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the first arrangement's value of the argument
    arrays in their result: the kernel program by its run read boundary by boundary, the reference by its run read
    operation by operation and the law that joins the two arrangements on real entries. -/
theorem algebraic : Cert.algebraic_KernelIdeal_ReferenceIdeal := by
  intro m ρ m' ρ' hpre hagree
  refine ⟨fun c => Cert.KernelIdeal.Gen.W4 m ρ c (Proc.devRef .tc Cert.KernelIdeal.main_v32),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW1, hb1, hW2⟩ := Cert.Gcn.Finite.real_of_pre _ _ _ _ _ _ _ (hpre c)
  refine (Cert.ReferenceIdeal.Read.val_main_v46_eq _ _ _ _ _ _ _).trans ?_
  refine (Cert.ReferenceIdeal.RefValue.v46_eq _ _ _ _ _ _ _).trans ?_
  rw [(hagree c).1, (hagree c).2.1, (hagree c).2.2.1, (hagree c).2.2.2.1, (hagree c).2.2.2.2.1,
    (hagree c).2.2.2.2.2.1, (hagree c).2.2.2.2.2.2]
  refine Eq.trans ?_ (Cert.KernelIdeal.KValue.result_eq m ρ c).symm
  exact (Cert.Gcn.outK_eq_outR _ _ _ _ Ideal.ofBits_zero_f32 ofBits_one_f32 _ _ _ _ _ hx hW1 hb1 hW2).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
